-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Affine.lean ====
/-
  The function both programs compute: a diagonal linear layer.  For an array `x` of 8192 rows and 4096 columns, a
  scale `w` and a shift `b` with one entry per column, the result at row `r`, column `q` is `x r q * w q + b q`.
  It is stated for any float instance: nothing below uses a law of the arithmetic, only where each operand is read.
  The column vectors appear in two layouts, as 4096 entries and as a one-row matrix of 4096 entries; the two
  readings are joined by `affineRow_eq`.
-/
import Idealize.ShloMosaic.Lib.ValueIdx

noncomputable section

namespace Cert.Affine

open Idealize.ShloMosaic Idealize.ShloMosaic.ValueIdx

variable {F : FTy → Type} [FloatOps F]

/-- The array's shape: 8192 rows of 4096 columns. -/
abbrev Arr : Shape := ⟨2, ![8192, 4096]⟩
/-- One entry per column. -/
abbrev Cols : Shape := ⟨1, ![4096]⟩
/-- One entry per column, laid out as a matrix of one row. -/
abbrev OneRow : Shape := ⟨2, ![1, 4096]⟩

/-- The column of an entry of the array, as an index of a column vector. -/
abbrev col (i : Arr.Idx) : Cols.Idx := ix1 (⟨(i 1).val, idx2_lt1 i⟩ : Fin 4096)

/-- The column of an entry of the array, as an index of the one-row matrix. -/
abbrev colRow (i : Arr.Idx) : OneRow.Idx := ix2 (⟨0, Nat.one_pos⟩ : Fin 1) (⟨(i 1).val, idx2_lt1 i⟩ : Fin 4096)

/-- `x * w + b`, the scale and the shift read at the entry's column. -/
def affine (x : Arr.Idx → Elt F .f32) (w b : Cols.Idx → Elt F .f32) : Arr.Idx → Elt F .f32 :=
  fun i => FloatOps.addf (FloatOps.mulf (x i) (w (col i))) (b (col i))

/-- The same with the scale and the shift given as one-row matrices. -/
def affineRow (x : Arr.Idx → Elt F .f32) (w b : OneRow.Idx → Elt F .f32) : Arr.Idx → Elt F .f32 :=
  fun i => FloatOps.addf (FloatOps.mulf (x i) (w (colRow i))) (b (colRow i))

/-- If the one-row matrices hold the column vectors' entries, the two readings are one function. -/
theorem affineRow_eq (x : Arr.Idx → Elt F .f32) (w b : Cols.Idx → Elt F .f32) (w' b' : OneRow.Idx → Elt F .f32)
    (hw : ∀ i : Arr.Idx, w' (colRow i) = w (col i)) (hb : ∀ i : Arr.Idx, b' (colRow i) = b (col i)) :
    affineRow x w' b' = affine x w b := by
  funext i
  show FloatOps.addf (FloatOps.mulf (x i) (w' (colRow i))) (b' (colRow i)) = FloatOps.addf (FloatOps.mulf (x i) (w (col i))) (b (col i))
  rw [hw i, hb i]

end Cert.Affine

end
-- ==== Proof.RefAffine.lean ====
/-
  The reference's result is the diagonal linear layer of its arguments: it broadcasts the scale and the shift along the
  rows (first to one row, then to every row), multiplies and adds.  Read at an entry, each broadcast reads its operand
  at the entry's column.
-/
import proofs.«109958_j1108101563130_2_alg».proof.Proof.Gen.ReferenceIdeal.Read
import proofs.«109958_j1108101563130_2_alg».proof.Proof.Affine

noncomputable section

namespace Cert.RefAffine

open Cert.ReferenceIdeal Cert.ReferenceIdeal.Read Idealize.ShloMosaic Idealize.ShloMosaic.ValueIdx Cert.Affine

variable {F : FTy → Type} [FloatOps F]

/-- The two broadcasts in a row read a column vector at the entry's column. -/
theorem idx_scale (i : S8192x4096.Idx) : idx_main_v0 (idx_main_v1 i) = col i :=
  funext fun a => Fin.ext (by match a with | ⟨0, _⟩ => rfl)

theorem idx_shift (i : S8192x4096.Idx) : idx_main_v3 (idx_main_v4 i) = col i :=
  funext fun a => Fin.ext (by match a with | ⟨0, _⟩ => rfl)

/-- The reference's last stage is `affine` of the arguments. -/
theorem ref_eq (x0 : (⟨S8192x4096, .f32⟩ : BufTy).Contents (Elt F)) (x1 x2 : (⟨S4096, .f32⟩ : BufTy).Contents (Elt F)) :
    val_main_v5 (F := F) x0 x1 x2 = affine x0 x1 x2 := by
  funext i
  rw [val_main_v5_apply, val_main_v2_apply, val_main_v1_apply, val_main_v0_apply, val_main_v4_apply, val_main_v3_apply,
    idx_scale, idx_shift]
  rfl

end Cert.RefAffine

end
-- ==== Proof.HostRows.lean ====
/-
  Before the kernel is launched the host lays the scale and the shift out as matrices of one row.  A reshape keeps the
  row-major order of the entries, so the one-row matrix read at row 0, column `q` is the vector read at `q`.
-/
import proofs.«109958_j1108101563130_2_alg».proof.Proof.Gen.KernelIdeal.Frame
import proofs.«109958_j1108101563130_2_alg».proof.Proof.Affine
import Idealize.ShloMosaic.Lib.Pipeline.Value
import Idealize.ShloMosaic.Lib.StableHlo.Run

noncomputable section

namespace Cert.HostRows

open Cert.KernelIdeal Cert.KernelIdeal.Gen Idealize.ShloMosaic Idealize.ShloMosaic.TcCoe Idealize.SL.Sem
open Idealize.ShloMosaic.StableHlo Idealize.ShloMosaic.ValueIdx Cert.Affine

variable {F : FTy → Type} [FloatOps F]
variable (m : (ℓ : Loc nD τ sig) → Buf (Elt F) ℓ)

/-- A vector of 4096 entries recast as one row, read at the row's column `q`, is the vector at `q`. -/
theorem oneRow_apply (v : S4096.Idx → Elt F .f32) (i : Arr.Idx) :
    shapeCast S1x4096 v shapeCasts_S4096_S1x4096 (colRow i) = v (col i) :=
  shapeCast_apply v shapeCasts_S4096_S1x4096 (colRow i) (col i) (by
    rw [Shape.rowMajor_val_one, Shape.rowMajor_val_two]
    show (i 1).val = 0 * 4096 + (i 1).val
    omega)

/-- The scale as the kernel's second operand finds it: the argument recast as one row. -/
theorem scale_row (c : Dev nD) :
    (V m c main_v0 : S1x4096.Idx → Elt F .f32) = shapeCast S1x4096 (m ((c : Thread nD τ).loc main_arg1)) shapeCasts_S4096_S1x4096 := by
  dsimp only [V, hostOps0]; after_results; rfl

/-- The shift as the kernel's third operand finds it: the argument recast as one row. -/
theorem shift_row (c : Dev nD) :
    (V m c main_v1 : S1x4096.Idx → Elt F .f32) = shapeCast S1x4096 (m ((c : Thread nD τ).loc main_arg2)) shapeCasts_S4096_S1x4096 := by
  dsimp only [V, hostOps0]; after_results; rfl

theorem scale_apply (c : Dev nD) (i : Arr.Idx) :
    (V m c main_v0 : S1x4096.Idx → Elt F .f32) (colRow i) = m ((c : Thread nD τ).loc main_arg1) (col i) := by
  rw [scale_row]; exact oneRow_apply _ i

theorem shift_apply (c : Dev nD) (i : Arr.Idx) :
    (V m c main_v1 : S1x4096.Idx → Elt F .f32) (colRow i) = m ((c : Thread nD τ).loc main_arg2) (col i) := by
  rw [shift_row]; exact oneRow_apply _ i

end Cert.HostRows

end
-- ==== Proof.KernelAffine.lean ====
/-
  What the kernel leaves in its result array.  The grid has 16 points; point `t` works on rows `512 t` to
  `512 t + 511` of the array, all 4096 columns, and on the whole one-row scale and shift.  Its body multiplies the
  block by the scale's row and adds the shift's row, each broadcast down the 512 rows, so the entry it writes at row
  `r`, column `q` of the block is the block's entry times the scale at `q` plus the shift at `q`: block `t` of
  `x * w + b`.  The 16 blocks cover every row, so the whole result array is `x * w + b`.
-/
import proofs.«109958_j1108101563130_2_alg».proof.Proof.Gen.KernelIdeal.Value
import proofs.«109958_j1108101563130_2_alg».proof.Proof.Affine
import proofs.«109958_j1108101563130_2_alg».proof.Proof.HostRows

set_option maxRecDepth 16384

noncomputable section

namespace Cert.KernelAffine

open Cert.KernelIdeal Cert.KernelIdeal.Gen Idealize.ShloMosaic Idealize.ShloMosaic.TcCoe Idealize.SL.Sem
open Idealize.ShloMosaic.Pipeline (Dat)
open Idealize.ShloMosaic.ValueIdx Cert.Affine

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The column of an entry of a block, as an index of the one-row operands. -/
abbrev blockCol (y : S512x4096.Idx) : S1x4096.Idx := ix2 (⟨0, Nat.one_pos⟩ : Fin 1) (⟨(y 1).val, idx2_lt1 y⟩ : Fin 4096)

/-- The body's result at an entry of the block: the block's entry times the scale plus the shift, both at the
    entry's column. -/
theorem body_apply (x0 : Vec F S512x4096 .f32) (x1 x2 : Vec F S1x4096 .f32) (y : S512x4096.Idx) :
    out0_3 x0 x1 x2 y = FloatOps.addf (FloatOps.mulf (x0 y) (x1 (blockCol y))) (x2 (blockCol y)) := by
  unfold out0_3
  rw [Value.canon3_eq]
  simp only [View.ld_unit_zero (S := S512x4096) origin, View.ld_unit_zero (S := S1x4096) origin]
  show FloatOps.addf (FloatOps.mulf (x0 (Value.ix3_0 y)) (x1 (Value.ix3_1 y))) (x2 (Value.ix3_2 y)) = _
  have e0 : Value.ix3_0 y = y := funext fun a => Fin.ext (by match a with | ⟨0, _⟩ => rfl | ⟨1, _⟩ => rfl)
  have e1 : Value.ix3_1 y = blockCol y := funext fun a => Fin.ext (by match a with | ⟨0, _⟩ => rfl | ⟨1, _⟩ => rfl)
  have e2 : Value.ix3_2 y = blockCol y := funext fun a => Fin.ext (by match a with | ⟨0, _⟩ => rfl | ⟨1, _⟩ => rfl)
  rw [e0, e1, e2]

/-- The index maps over the 16 points: the array's block and the result's block are the same rows, point `t` has
    block row `t`, and every block starts at column 0; the scale and the shift are always their one block. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- Every block row is some point's. -/
theorem idx_onto : ∀ q : Fin 16, ∃ t : Fin cfg0.N, t.val = q.val :=
  (by decide +kernel : ∀ q : Fin 16, ∃ t : Fin grid0.N, t.val = q.val)

/-- What point `t` writes back is block `t` of `x * w + b`, over the arrays as the region finds them. -/
theorem flushed_eq (c : Dev nD) (t : Fin cfg0.N) :
    (dats m 0 c).flushed 3 t
      = ((cfg0.win 3).blk t).view.read (Elt F) (affineRow (V m c main_arg0) (V m c main_v0) (V m c main_v1)) := by
  rw [Value.flushed3]
  obtain ⟨e0, e1, e2, e3, e4, e5, e6, -⟩ := idx_facts t
  funext j
  show out0_3 (iblk m c 0 t) (iblk m c 1 t) (iblk m c 2 t) j = _
  rw [body_apply]
  show FloatOps.addf (FloatOps.mulf (V m c main_arg0 (((cfg0.win 0).blk t).view.emb j))
        (V m c main_v0 (((cfg0.win 1).blk t).view.emb (blockCol j)))) (V m c main_v1 (((cfg0.win 2).blk t).view.emb (blockCol j)))
      = FloatOps.addf (FloatOps.mulf (V m c main_arg0 (((cfg0.win 3).blk t).view.emb j))
        (V m c main_v0 (colRow (((cfg0.win 3).blk t).view.emb j)))) (V m c main_v1 (colRow (((cfg0.win 3).blk t).view.emb j)))
  have hj0 : (j 0).val < 512 := (j 0).isLt
  have hj1 : (j 1).val < 4096 := (j 1).isLt
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * (j 1).val = win0_3.index t (1 : Fin 2) * 4096 + 1 * (j 1).val; omega
  have h1 : ((cfg0.win 1).blk t).view.emb (blockCol j) = colRow (((cfg0.win 3).blk t).view.emb j) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_3.index t (1 : Fin 2) * 4096 + 1 * (j 1).val; omega
  have h2 : ((cfg0.win 2).blk t).view.emb (blockCol j) = colRow (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 4096 + 1 * (j 1).val = win0_3.index t (1 : Fin 2) * 4096 + 1 * (j 1).val; omega
  rw [h0, h1, h2]

/-- An entry of the array is in point `t`'s block iff each coordinate is in the block's range. -/
theorem mem_blk (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Row `r` is in the block of point `r / 512`: the 16 blocks cover the array. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩
  have ht' : t.val = (i 0).val / 512 := ht
  obtain ⟨-, -, e2, -, -, -, -, e7⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- The result array after the run is `x * w + b` of the arguments. -/
theorem final (c : Dev nD) :
    (dats m 0 c).arrAt 3 cfg0.N
      = affine (m ((c : Thread nD τ).loc main_arg0)) (m ((c : Thread nD τ).loc main_arg1)) (m ((c : Thread nD τ).loc main_arg2)) := by
  rw [(dats m 0 c).arrAt_eq_of_cover 3 _ (fun t _ => flushed_eq m c t) cover, V_main_arg0]
  exact affineRow_eq _ _ _ _ _ (HostRows.scale_apply m c) (HostRows.shift_apply m c)

/-- The kernel's run: the result is `x * w + b` of the arguments, and the arguments are unchanged. -/
theorem run : θ_run defs (onTc (τ := τ) (main (F := F))) ⟨m, fun _ => 0, ρ⟩ fun r => ∀ c : Dev nD,
      r.2.mem ((c : Thread nD τ).loc main_v2)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelAffine

end
-- ==== Proof.lean ====
/-
  A diagonal linear layer: for `x` of 8192 rows and 4096 columns, a scale `w` and a shift `b` with one entry per
  column, the result at row `r`, column `q` is `x r q * w q + b q`.

  The kernel works on 16 blocks of 512 whole rows; in each it multiplies the block by the scale and adds the shift,
  both laid out as one row and broadcast down the rows.  The blocks tile the array, so its result array is
  `x * w + b` entry by entry (`Cert.KernelAffine.run`).  The reference broadcasts the scale and the shift to the whole
  array, multiplies and adds: the same function of the arguments (`Cert.RefAffine.ref_eq`).  Both programs perform,
  at each entry, the same product followed by the same sum of the same three numbers, so no law of the extended reals
  is needed and the finiteness of the inputs is never used.

  Each program terminates without a fault and leaves its arguments as they were; the kernel's result lives in a copy
  of `x`, so `x` itself is also unchanged.  The idealized kernel is the kernel's own text read over the extended
  reals: no operation was rewritten, and there is nothing to preserve.
-/
import proofs.«109958_j1108101563130_2_alg».proof.Defs
import proofs.«109958_j1108101563130_2_alg».proof.Proof.Gen.Kernel
import proofs.«109958_j1108101563130_2_alg».proof.Proof.Gen.Kernel.Skeleton
import proofs.«109958_j1108101563130_2_alg».proof.Proof.Gen.Kernel.Launch
import proofs.«109958_j1108101563130_2_alg».proof.Proof.Gen.Kernel.Points
import proofs.«109958_j1108101563130_2_alg».proof.Proof.Gen.Kernel.Frame
import proofs.«109958_j1108101563130_2_alg».proof.Proof.Gen.KernelIdeal
import proofs.«109958_j1108101563130_2_alg».proof.Proof.Gen.KernelIdeal.Skeleton
import proofs.«109958_j1108101563130_2_alg».proof.Proof.Gen.KernelIdeal.Launch
import proofs.«109958_j1108101563130_2_alg».proof.Proof.Gen.KernelIdeal.Points
import proofs.«109958_j1108101563130_2_alg».proof.Proof.Gen.KernelIdeal.Frame
import proofs.«109958_j1108101563130_2_alg».proof.Proof.Gen.ReferenceIdeal
import proofs.«109958_j1108101563130_2_alg».proof.Proof.Gen.Pre_finite_inputs
import proofs.«109958_j1108101563130_2_alg».proof.Proof.Gen.KernelIdeal.Value
import proofs.«109958_j1108101563130_2_alg».proof.Proof.Gen.ReferenceIdeal.Run
import proofs.«109958_j1108101563130_2_alg».proof.Proof.Gen.ReferenceIdeal.Read
import proofs.«109958_j1108101563130_2_alg».proof.Proof.Affine
import proofs.«109958_j1108101563130_2_alg».proof.Proof.RefAffine
import proofs.«109958_j1108101563130_2_alg».proof.Proof.HostRows
import proofs.«109958_j1108101563130_2_alg».proof.Proof.KernelAffine
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre : Cert.Pre_finite_inputs.Facts]

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with `x * w + b` of them. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelAffine.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefAffine.ref_eq, (hagree c).1, (hagree c).2.1, (hagree c).2.2]

end

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
